-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : FVec F S100000x64 .f32) (main_arg2 : IVec S1600000 32) (main_arg3 : IVec S1600000 32) (main_arg4 : FVec F S64x64 .f32) (main_arg5 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩
abbrev S5000 : Shape := ⟨1, ![5000]⟩

abbrev nBuf : Space → Nat
  | .hbm => 37
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S64x64, .f32⟩
  | .hbm, ⟨33, _⟩ => ⟨S64x64, .bf16⟩
  | .hbm, ⟨34, _⟩ => ⟨S64x64, .f32⟩
  | .hbm, ⟨35, _⟩ => ⟨S64x64, .bf16⟩
  | .hbm, ⟨36, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .bf16⟩
  | .local _ .vmem, ⟨7, _⟩ => ⟨S64x64, .bf16⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S5000x64_S5000 : S5000x64.Reduces [1] S5000
  shapeCasts_S5000_S5000x1 : S5000.ShapeCasts S5000x1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 53
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S64x64, .f32⟩
  | .hbm, ⟨32, _⟩ => ⟨S100000x64, .f32⟩
  | .hbm, ⟨33, _⟩ => ⟨S64x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000, .f32⟩
  | .hbm, ⟨42, _⟩ => ⟨S100000x1, .f32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .i1⟩
  | .hbm, ⟨47, _⟩ => ⟨S_, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x64, .f32⟩
  | .hbm, ⟨52, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_call1_v2 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  reducesTo_S100000x64_S100000_d1 : S100000x64.ReducesTo [1] S100000
  h_S_ : 0 < S_.numel
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.ConvSpec.lean ====
/-
  One node's output row of the graph layer, as a function on the extended reals, and the two scalar laws that join
  the two ways of writing it.

  A node has a row `h` of its own 64 features and a row `a` of its 64 aggregated neighbour features. With two 64×64
  weight matrices `ws`, `wn` (entry `(k, c)` multiplies input feature `k` into output feature `c`), the activation of
  output feature `c` is `max (∑ₖ h k · ws k c + ∑ₖ a k · wn k c) 0`, and the output row is the activation row divided
  by its Euclidean norm, the norm of a zero row replaced by one.

  The guard on the norm can be written before the root (replace a zero sum of squares by one, then take the root) or
  after it (take the root, then replace a zero root by one); `rootGuard_eq` says the two agree at every extended real,
  because the root vanishes only at zero and the root of one is one. The mean over neighbours can be written as a
  product with the reciprocal of the count or as a quotient by the count; `mul_recip` says the two agree whenever
  the count is not zero.
-/
import Idealize.ShloMosaic.PureOps.Ideal
import Idealize.ShloMosaic.PureOps.Ideal.Laws
import Idealize.ShloMosaic.Lib.ValueIdx

noncomputable section

namespace Cert.ConvSpec

open Idealize.ShloMosaic Idealize.ShloMosaic.ValueIdx

/-- The f32 pattern of one denotes the real number one. -/
theorem one_val : Ideal.ofBits .f32 0x3F800000#32 = 1 := by
  simp [Ideal.ofBits, Ideal.ieee]
  norm_cast
  norm_num

/-- The root of zero is zero, -/
theorem sqrt_zero : Ideal.sqrt 0 = 0 := by
  show Ideal.sqrt ((0 : ℝ) : EReal) = _
  rw [Ideal.sqrt_coe]
  simp

/-- and the root of one is one. -/
theorem sqrt_one : Ideal.sqrt 1 = 1 := by
  show Ideal.sqrt ((1 : ℝ) : EReal) = _
  rw [Ideal.sqrt_coe]
  simp

/-- The activation of output feature `c`: both linear maps added, clipped below at zero. -/
def act (h a : Fin 64 → EReal) (ws wn : Fin 64 → Fin 64 → EReal) (c : Fin 64) : EReal :=
  max ((∑ k : Fin 64, h k * ws k c) + (∑ k : Fin 64, a k * wn k c)) (Ideal.ofBits .f32 0x00000000#32)

/-- The sum of the squares of a row. -/
def sumsq (z : Fin 64 → EReal) : EReal := ∑ c : Fin 64, z c * z c

/-- The guarded norm, guard first: a zero sum of squares is replaced by one, then the root is taken. -/
def guardRoot (s : EReal) : EReal :=
  Ideal.sqrt (Scalar.select (Ideal.cmp .oeq s (Ideal.ofBits .f32 0x00000000#32)) (Ideal.ofBits .f32 0x3F800000#32) s)

/-- The guarded norm, root first: the root is taken, then a zero root is replaced by one. -/
def rootGuard (s : EReal) : EReal :=
  Scalar.select (Ideal.cmp .oeq (Ideal.sqrt s) (Ideal.ofBits .f32 0x00000000#32)) (Ideal.ofBits .f32 0x3F800000#32) (Ideal.sqrt s)

/-- The two guarded norms agree everywhere: at zero both are one; elsewhere the root is not zero (it is `⊥` below
    zero and at `⊥`, positive above zero, `⊤` at `⊤`), so neither guard fires. -/
theorem guardRoot_eq (s : EReal) : guardRoot s = rootGuard s := by
  unfold guardRoot rootGuard
  rw [Ideal.ofBits_zero_f32, one_val]
  induction s using EReal.rec with
  | bot => simp [Ideal.cmp, Scalar.select]
  | top => simp [Ideal.cmp, Scalar.select]
  | coe r =>
    by_cases h0 : r = 0
    · subst h0
      simp [Ideal.cmp, Scalar.select, sqrt_zero, sqrt_one]
    · have hne : ((r : ℝ) : EReal) ≠ 0 := by exact_mod_cast h0
      by_cases hneg : r < 0
      · simp [Ideal.cmp, Scalar.select, hne, hneg]
      · have hpos : 0 < r := lt_of_le_of_ne (not_lt.mp hneg) (Ne.symm h0)
        have hs : Real.sqrt r ≠ 0 := (Real.sqrt_pos.mpr hpos).ne'
        have hs' : ((Real.sqrt r : ℝ) : EReal) ≠ 0 := by exact_mod_cast hs
        simp [Ideal.cmp, Scalar.select, hne, hneg, hs']

/-- A product with the reciprocal of a nonzero count is the quotient by the count. -/
theorem mul_recip (x d : EReal) (hd : d ≠ 0) :
    x * Ideal.div (Ideal.ofBits .f32 0x3F800000#32) d = Ideal.div x d := by
  rw [one_val, Ideal.div, if_neg hd, Ideal.div, if_neg hd, one_mul]

/-- A count clipped below at one is not zero. -/
theorem max_one_ne_zero (x : EReal) : max x (Ideal.ofBits .f32 0x3F800000#32) ≠ 0 := by
  rw [one_val]
  exact (lt_of_lt_of_le zero_lt_one (le_max_right x 1)).ne'

/-- The output row: the activations over their guarded norm. -/
def row (h a : Fin 64 → EReal) (ws wn : Fin 64 → Fin 64 → EReal) (c : Fin 64) : EReal :=
  Ideal.div (act h a ws wn c) (rootGuard (sumsq (act h a ws wn)))

/-- The output row depends on its four arguments entry by entry. -/
theorem row_congr {h h' a a' : Fin 64 → EReal} {ws ws' wn wn' : Fin 64 → Fin 64 → EReal}
    (e1 : ∀ k, h k = h' k) (e2 : ∀ k, a k = a' k) (e3 : ∀ k c, ws k c = ws' k c) (e4 : ∀ k c, wn k c = wn' k c)
    (c : Fin 64) : row h a ws wn c = row h' a' ws' wn' c := by
  have q1 : h = h' := funext e1
  have q2 : a = a' := funext e2
  have q3 : ws = ws' := funext fun k => funext (e3 k)
  have q4 : wn = wn' := funext fun k => funext (e4 k)
  rw [q1, q2, q3, q4]

/-- The whole result: row `r` of the output is the output row of row `r` of the node features `hs`, of row `r` of the
    neighbour sums `sm` divided by node `r`'s clipped count `d r`, and of the two weight matrices read transposed. -/
def result (hs sm : (⟨2, ![100000, 64]⟩ : Shape).Idx → EReal) (d : (⟨1, ![100000]⟩ : Shape).Idx → EReal)
    (wNeigh wSelf : (⟨2, ![64, 64]⟩ : Shape).Idx → EReal) : (⟨2, ![100000, 64]⟩ : Shape).Idx → EReal :=
  fun i => row (fun k => hs (ix2 (i 0) k)) (fun k => Ideal.div (sm (ix2 (i 0) k)) (d (ix1 (i 0))))
    (fun k c => wSelf (ix2 c k)) (fun k c => wNeigh (ix2 c k)) (i 1)

end Cert.ConvSpec

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.BlockRow.lean ====
/-
  One block of the kernel body, read at an index.

  The body takes a block of 5000 rows: the rows' own features `xh`, their neighbour sums `xs`, the column `xi` of their
  reciprocal neighbour counts, and the two 64×64 weight matrices `ws`, `wn`. It multiplies each neighbour-sum row by
  the row's reciprocal count, applies both linear maps, adds, clips at zero, and divides every row by the root of its
  sum of squares (a zero sum replaced by one). At row `p`, column `q` that is `ConvSpec.row` of row `p` of `xh`, of row
  `p` of `xs` times the reciprocal count of row `p`, and of the two matrices — with the norm's guard written the other
  way round, which `ConvSpec.guardRoot_eq` allows.
-/
import proofs.«155459_j32220844654996_2_alg».proof.Proof.Gen.KernelIdeal.Skeleton
import proofs.«155459_j32220844654996_2_alg».proof.Proof.ConvSpec
import proofs.«155459_j32220844654996_2_alg».proof.Proof.LibKeepdims
import proofs.«155459_j32220844654996_2_alg».proof.Proof.LibPlainDot
import Idealize.ShloMosaic.Lib.Pipeline.Value
import Idealize.ShloMosaic.Lib.ValueIdx

noncomputable section

namespace Cert.KernelIdeal.BlockRow

open Idealize.ShloMosaic Idealize.ShloMosaic.ValueIdx Cert.KernelIdeal Cert.KernelIdeal.Gen Cert.ConvSpec

/-- The clipped activations of a block: both matrix products added, the maximum with zero taken. -/
def pre (xs : Vec Ideal S5000x64 .f32) (xi : Vec Ideal S5000x1 .f32) (xh : Vec Ideal S5000x64 .f32)
    (ws wn : Vec Ideal S64x64 .bf16) : FVec Ideal S5000x64 .f32 :=
  maximumf
    (addf
      (matmul dot_S5000x64_S64x64_S5000x64_1_0_0_1_n_n none (truncf .bf16 (xh : FVec Ideal S5000x64 .f32) bitsLt_bf16_f32 : FVec Ideal S5000x64 .bf16)
        (shapeCast S64x64 ws shapeCasts_S64x64_S64x64 : FVec Ideal S64x64 .bf16) (constant S5000x64 .f32 0x00000000#32))
      (matmul dot_S5000x64_S64x64_S5000x64_1_0_0_1_n_n none
        (truncf .bf16 (mulf (shapeCast S5000x64 xs shapeCasts_S5000x64_S5000x64 : FVec Ideal S5000x64 .f32)
          (broadcastTo S5000x64 (shapeCast S5000x1 xi shapeCasts_S5000x1_S5000x1 : FVec Ideal S5000x1 .f32) broadcasts_S5000x1_S5000x64 : FVec Ideal S5000x64 .f32)) bitsLt_bf16_f32 : FVec Ideal S5000x64 .bf16)
        (shapeCast S64x64 wn shapeCasts_S64x64_S64x64 : FVec Ideal S64x64 .bf16) (constant S5000x64 .f32 0x00000000#32)))
    (broadcast S5000x64 (Scalar.ofBits .f32 0x00000000#32) : FVec Ideal S5000x64 .f32)

/-- The column of row sums of squares of a block. -/
def sq (z : FVec Ideal S5000x64 .f32) : FVec Ideal S5000x1 .f32 :=
  shapeCast S5000x1 (multiReduction .add [1] S5000 (mulf z z) 0x00000000#32 reduces_S5000x64_S5000 (.inl rfl) rfl : FVec Ideal S5000 .f32)
    shapeCasts_S5000_S5000x1

/-- A block of activations divided, row by row, by the root of the row's guarded sum of squares. -/
def normalize (z : FVec Ideal S5000x64 .f32) : FVec Ideal S5000x64 .f32 :=
  divf z (broadcastTo S5000x64
    (sqrt (select (cmpf .oeq (sq z) (broadcast S5000x1 (Scalar.ofBits .f32 0x00000000#32) : FVec Ideal S5000x1 .f32))
      (broadcast S5000x1 (Scalar.ofBits .f32 0x3F800000#32) : FVec Ideal S5000x1 .f32) (sq z)) : FVec Ideal S5000x1 .f32) broadcasts_S5000x1_S5000x64 : FVec Ideal S5000x64 .f32)

/-- The body's stored value is the normalized activations. -/
theorem pay_split (xs : Vec Ideal S5000x64 .f32) (xi : Vec Ideal S5000x1 .f32) (xh : Vec Ideal S5000x64 .f32)
    (ws wn : Vec Ideal S64x64 .bf16) : k0_pay1 xs xi xh ws wn = normalize (pre xs xi xh ws wn) := rfl

/-- The printed dimension record is the plain 5000×64 by 64×64 product's. -/
theorem dot_plain : dot_S5000x64_S64x64_S5000x64_1_0_0_1_n_n = DotDims.plain 5000 64 64 := rfl

/-- The activations at row `p`, column `c`. -/
theorem pre_apply (xs : Vec Ideal S5000x64 .f32) (xi : Vec Ideal S5000x1 .f32) (xh : Vec Ideal S5000x64 .f32)
    (ws wn : Vec Ideal S64x64 .bf16) (p : Fin 5000) (c : Fin 64) :
    pre xs xi xh ws wn (ix2 p c)
      = act (fun k => xh (ix2 p k)) (fun k => xs (ix2 p k) * xi (ix2 p (0 : Fin 1)))
          (fun k c => ws (ix2 k c)) (fun k c => wn (ix2 k c)) c := by
  unfold pre act
  rw [maximumf_apply, addf_apply, broadcast_apply, dot_plain]
  unfold Idealize.ShloMosaic.matmul
  rw [Cert.LibPlainDot.matmul_zero_apply 5000 64 64, Cert.LibPlainDot.matmul_zero_apply 5000 64 64]
  simp only [shapeCast_self, truncf_apply, mulf_apply]
  refine congrArg₂ max (congrArg₂ (· + ·) rfl (Finset.sum_congr rfl fun k _ => ?_)) rfl
  refine congrArg (· * _) (congrArg (_ * ·) ?_)
  exact Cert.Keepdims.broadcastTo_a1_ab_apply xi broadcasts_S5000x1_S5000x64 p k

/-- The row sums of squares at row `p`. -/
theorem sq_apply (z : FVec Ideal S5000x64 .f32) (p : Fin 5000) (u : Fin 1) :
    sq z (ix2 p u) = ∑ k : Fin 64, z (ix2 p k) * z (ix2 p k) := by
  unfold sq
  rw [Cert.Keepdims.shapeCast_a_a1_apply]
  exact Cert.Keepdims.laneSum_apply (mulf z z) reduces_S5000x64_S5000 (.inl rfl) rfl p

/-- The normalized block at row `p`, column `q`: the entry over the guarded root of its row's sum of squares. -/
theorem normalize_apply (z : FVec Ideal S5000x64 .f32) (p : Fin 5000) (q : Fin 64) :
    normalize z (ix2 p q) = Ideal.div (z (ix2 p q)) (guardRoot (∑ k : Fin 64, z (ix2 p k) * z (ix2 p k))) := by
  unfold normalize
  rw [divf_apply, Cert.Keepdims.broadcastTo_a1_ab_apply]
  show Ideal.div (z (ix2 p q)) (Ideal.sqrt (Scalar.select (Ideal.cmp .oeq (sq z (ix2 p 0)) (Ideal.ofBits .f32 0x00000000#32))
    (Ideal.ofBits .f32 0x3F800000#32) (sq z (ix2 p 0)))) = _
  rw [sq_apply]
  rfl

/-- The body's stored value at row `p`, column `q` is the output row of the block's row `p`. -/
theorem pay_apply (xs : Vec Ideal S5000x64 .f32) (xi : Vec Ideal S5000x1 .f32) (xh : Vec Ideal S5000x64 .f32)
    (ws wn : Vec Ideal S64x64 .bf16) (p : Fin 5000) (q : Fin 64) :
    k0_pay1 xs xi xh ws wn (ix2 p q)
      = row (fun k => xh (ix2 p k)) (fun k => xs (ix2 p k) * xi (ix2 p (0 : Fin 1)))
          (fun k c => ws (ix2 k c)) (fun k c => wn (ix2 k c)) q := by
  rw [pay_split, normalize_apply, guardRoot_eq]
  simp only [pre_apply]
  rfl

end Cert.KernelIdeal.BlockRow

end
-- ==== Proof.EntryArrays.lean ====
/-
  The arrays the kernel region finds, other than the node features: each is written by the host operations before
  the region, and is read here as a term of the program's arguments.

  The neighbour sums are the scatter-added gathered rows, the same operations on the same arguments as the
  reference's. The reciprocal-count column holds, in row `r`, one over node `r`'s count clipped below at one. The two
  weight windows hold the two weight matrices transposed (the change of float format is the identity on the extended
  reals), so entry `(k, c)` of a window is entry `(c, k)` of its argument.
-/
import proofs.«155459_j32220844654996_2_alg».proof.Proof.Gen.KernelIdeal.Frame
import proofs.«155459_j32220844654996_2_alg».proof.Proof.Gen.ReferenceIdeal.Read
import proofs.«155459_j32220844654996_2_alg».proof.Proof.LibKeepdims
import Idealize.ShloMosaic.Lib.StableHlo.Run
import Idealize.ShloMosaic.Lib.Pipeline.Value
import Idealize.ShloMosaic.Lib.ValueIdx

noncomputable section

namespace Cert.KernelIdeal.Entry

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The neighbour sums the region finds are the reference's, of the same arguments. -/
theorem summed_eq (c : Dev nD) :
    (V m c main_v9 : S100000x64.Idx → EReal)
      = Cert.ReferenceIdeal.Read.val_main_v9 (F := Ideal) (m ((c : Thread nD τ).loc main_arg0))
          (m ((c : Thread nD τ).loc main_arg2)) (m ((c : Thread nD τ).loc main_arg3)) := by
  dsimp only [Gen.V, Gen.hostOps0]; after_results <;> rfl

/-- The reciprocal-count column the region finds, as a term: one over the clipped counts, cast to a column. -/
theorem recip_eq (c : Dev nD) :
    (V m c main_v18 : S100000x1.Idx → EReal)
      = shapeCast S100000x1 (Host.divf (F := Ideal) (broadcastInDim S100000 ![] bcast_S_S100000 (constant (F := Ideal) S_ .f32 0x3F800000#32))
          (Cert.ReferenceIdeal.Read.val_main_v15 (F := Ideal) (m ((c : Thread nD τ).loc main_arg3)))) shapeCasts_S100000_S100000x1 := by
  dsimp only [Gen.V, Gen.hostOps0]; after_results <;> rfl

/-- One over a count array, read at node `r`. -/
theorem recip_read (d : FVec Ideal S100000 .f32) (r : Fin 100000) :
    Host.divf (F := Ideal) (broadcastInDim S100000 ![] bcast_S_S100000 (constant (F := Ideal) S_ .f32 0x3F800000#32)) d (ix1 r)
      = Ideal.div (Ideal.ofBits .f32 0x3F800000#32) (d (ix1 r)) := rfl

/-- Row `r` of the reciprocal-count column is one over node `r`'s clipped count. -/
theorem recip_apply (c : Dev nD) (r : Fin 100000) (u : Fin 1) :
    (V m c main_v18 : S100000x1.Idx → EReal) (ix2 r u)
      = Ideal.div (Ideal.ofBits .f32 0x3F800000#32)
          (Cert.ReferenceIdeal.Read.val_main_v15 (F := Ideal) (m ((c : Thread nD τ).loc main_arg3)) (ix1 r)) := by
  rw [recip_eq, Cert.Keepdims.shapeCast_a_a1_apply]
  exact recip_read _ r

/-- The first weight window the region finds is the last argument transposed. -/
theorem wself_eq (c : Dev nD) :
    (V m c main_v20 : S64x64.Idx → EReal)
      = truncf (F := Ideal) .bf16 (transpose S64x64 [1, 0] (m ((c : Thread nD τ).loc main_arg5)) transposes_S64x64_S64x64_1_0) bitsLt_bf16_f32 := by
  dsimp only [Gen.V, Gen.hostOps0]; after_results <;> rfl

/-- Entry `(k, j)` of the first weight window is entry `(j, k)` of the last argument. -/
theorem wself_apply (c : Dev nD) (k j : Fin 64) :
    (V m c main_v20 : S64x64.Idx → EReal) (ix2 k j) = (m ((c : Thread nD τ).loc main_arg5) : S64x64.Idx → EReal) (ix2 j k) := by
  rw [wself_eq, truncf_apply]
  exact transpose_apply [1, 0] _ transposes_S64x64_S64x64_1_0 (ix2 k j) (ix2 j k) (fun b => match b with
    | ⟨0, _⟩ => rfl
    | ⟨1, _⟩ => rfl)

/-- The second weight window the region finds is the fifth argument transposed. -/
theorem wneigh_eq (c : Dev nD) :
    (V m c main_v22 : S64x64.Idx → EReal)
      = truncf (F := Ideal) .bf16 (transpose S64x64 [1, 0] (m ((c : Thread nD τ).loc main_arg4)) transposes_S64x64_S64x64_1_0) bitsLt_bf16_f32 := by
  dsimp only [Gen.V, Gen.hostOps0]; after_results <;> rfl

/-- Entry `(k, j)` of the second weight window is entry `(j, k)` of the fifth argument. -/
theorem wneigh_apply (c : Dev nD) (k j : Fin 64) :
    (V m c main_v22 : S64x64.Idx → EReal) (ix2 k j) = (m ((c : Thread nD τ).loc main_arg4) : S64x64.Idx → EReal) (ix2 j k) := by
  rw [wneigh_eq, truncf_apply]
  exact transpose_apply [1, 0] _ transposes_S64x64_S64x64_1_0 (ix2 k j) (ix2 j k) (fun b => match b with
    | ⟨0, _⟩ => rfl
    | ⟨1, _⟩ => rfl)

end Cert.KernelIdeal.Entry

end
-- ==== Proof.KernelWhole.lean ====
/-
  The kernel's result array as one function of the program's arguments.

  The grid has 20 points; point `t` works on rows `5000·t … 5000·t + 4999` of the node features, of the neighbour sums
  and of the reciprocal-count column, and on the two whole weight windows, and writes rows `5000·t … 5000·t + 4999` of
  the result. Row `p` of what point `t` writes is the output row (`ConvSpec.row`) of row `5000·t + p` of those arrays, so
  each point writes its block of ONE whole-array function; the 20 blocks cover all 100000 rows (row `r` lies in block
  `r / 5000`), and the result array ends holding that function. Reading the arrays the host operations wrote as terms
  of the arguments, and the product with a reciprocal count as the quotient by the count (the count, clipped at one,
  is not zero), it is `ConvSpec.result` of the arguments.
-/
import proofs.«155459_j32220844654996_2_alg».proof.Proof.Gen.KernelIdeal.Frame
import proofs.«155459_j32220844654996_2_alg».proof.Proof.Gen.KernelIdeal.Value
import proofs.«155459_j32220844654996_2_alg».proof.Proof.ConvSpec
import proofs.«155459_j32220844654996_2_alg».proof.Proof.BlockRow
import proofs.«155459_j32220844654996_2_alg».proof.Proof.EntryArrays
import Idealize.ShloMosaic.Lib.Pipeline.Value
import Idealize.ShloMosaic.Lib.ValueIdx

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.ConvSpec

variable (m : (ℓ : Loc nD τ sig) → Buf (Elt Ideal) ℓ) (ρ : Dev nD → PrngReg)

theorem zero_offsets : (![0, 0] : Fin 2 → Nat) = fun _ => 0 := funext fun a => by fin_cases a <;> rfl

/-- The block index of every window at every point: the three row-blocked inputs and the output are at row block `t`,
    column block 0; the weight windows stay at block (0, 0). Decided over the 20 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole-array function of five arrays laid out as the region's windows are: node features, neighbour sums,
    reciprocal-count column, and the two weight matrices as the body multiplies by them. -/
def ofArrays (a0 a1 : S100000x64.Idx → EReal) (a2 : S100000x1.Idx → EReal) (a3 a4 : S64x64.Idx → EReal) :
    S100000x64.Idx → EReal :=
  fun i => row (fun k => a0 (ix2 (i 0) k)) (fun k => a1 (ix2 (i 0) k) * a2 (ix2 (i 0) (0 : Fin 1)))
    (fun k j => a3 (ix2 k j)) (fun k j => a4 (ix2 k j)) (i 1)

/-- `ofArrays` at row `r`, column `q`. -/
theorem ofArrays_apply (a0 a1 : S100000x64.Idx → EReal) (a2 : S100000x1.Idx → EReal) (a3 a4 : S64x64.Idx → EReal)
    (r : Fin 100000) (q : Fin 64) :
    ofArrays a0 a1 a2 a3 a4 (ix2 r q)
      = row (fun k => a0 (ix2 r k)) (fun k => a1 (ix2 r k) * a2 (ix2 r (0 : Fin 1)))
          (fun k j => a3 (ix2 k j)) (fun k j => a4 (ix2 k j)) q := rfl

/-- `ConvSpec.result` at row `r`, column `q`. -/
theorem result_apply (hs sm : S100000x64.Idx → EReal) (d : S100000.Idx → EReal) (wNeigh wSelf : S64x64.Idx → EReal)
    (r : Fin 100000) (q : Fin 64) :
    result hs sm d wNeigh wSelf (ix2 r q)
      = row (fun k => hs (ix2 r k)) (fun k => Ideal.div (sm (ix2 r k)) (d (ix1 r)))
          (fun k c => wSelf (ix2 c k)) (fun k c => wNeigh (ix2 c k)) q := rfl

/-- Row `5000·t + p`, as a row of the whole arrays. -/
def rowAt (t : Fin cfg0.N) (p : Fin 5000) : Fin 100000 :=
  ⟨t.val * 5000 + p.val, by have hN : cfg0.N = 20 := N_0; have := t.isLt; have := p.isLt; omega⟩

/-- WHAT POINT `t` WRITES, for any contents of the five input arrays: the body's stored value over the point's input
    blocks is block `t` of `ofArrays` of the arrays. -/
theorem block_of_arrays (t : Fin cfg0.N) (a0 a1 : S100000x64.Idx → EReal) (a2 : S100000x1.Idx → EReal)
    (a3 a4 : S64x64.Idx → EReal) :
    (cfg0.win 5).cut (grid0.coords t)
        (out0_5 (F := Ideal) (((cfg0.win 0).blk t).view.read (Elt Ideal) a0) (((cfg0.win 1).blk t).view.read (Elt Ideal) a1)
          (((cfg0.win 2).blk t).view.read (Elt Ideal) a2) (((cfg0.win 3).blk t).view.read (Elt Ideal) a3)
          (((cfg0.win 4).blk t).view.read (Elt Ideal) a4))
      = ((cfg0.win 5).blk t).view.read (Elt Ideal) (ofArrays a0 a1 a2 a3 a4) := by
  unfold out0_5
  rw [View.canon_unit_zero zero_offsets]
  simp only [View.ld_unit_zero (S := S5000x64) zero_offsets, View.ld_unit_zero (S := S5000x1) zero_offsets,
    View.ld_unit_zero (S := S64x64) zero_offsets]
  obtain ⟨e00, e01, e10, e11, e20, e21, e30, e31, e40, e41, e50, e51⟩ := block_index t
  funext y
  obtain ⟨p, q, rfl⟩ : ∃ (p : Fin 5000) (q : Fin 64), y = ix2 p q := ⟨y 0, y 1, eq_ix2 y⟩
  have h0 : ∀ k : Fin 64, ((cfg0.win 0).blk t).view.emb (ix2 p k) = (ix2 (rowAt t p) k : S100000x64.Idx) := fun k => by
    funext a; apply Fin.ext
    match a with
    | ⟨0, _⟩ => show win0_0.index t (0 : Fin 2) * 5000 + 1 * p.val = t.val * 5000 + p.val; omega
    | ⟨1, _⟩ => show win0_0.index t (1 : Fin 2) * 64 + 1 * k.val = k.val; omega
  have h1 : ∀ k : Fin 64, ((cfg0.win 1).blk t).view.emb (ix2 p k) = (ix2 (rowAt t p) k : S100000x64.Idx) := fun k => by
    funext a; apply Fin.ext
    match a with
    | ⟨0, _⟩ => show win0_1.index t (0 : Fin 2) * 5000 + 1 * p.val = t.val * 5000 + p.val; omega
    | ⟨1, _⟩ => show win0_1.index t (1 : Fin 2) * 64 + 1 * k.val = k.val; omega
  have h2 : ((cfg0.win 2).blk t).view.emb (ix2 p (0 : Fin 1)) = (ix2 (rowAt t p) (0 : Fin 1) : S100000x1.Idx) := by
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  have h3 : ∀ k j : Fin 64, ((cfg0.win 3).blk t).view.emb (ix2 k j) = (ix2 k j : S64x64.Idx) := fun k j => by
    funext a; apply Fin.ext
    match a with
    | ⟨0, _⟩ => show win0_3.index t (0 : Fin 2) * 64 + 1 * k.val = k.val; omega
    | ⟨1, _⟩ => show win0_3.index t (1 : Fin 2) * 64 + 1 * j.val = j.val; omega
  have h4 : ∀ k j : Fin 64, ((cfg0.win 4).blk t).view.emb (ix2 k j) = (ix2 k j : S64x64.Idx) := fun k j => by
    funext a; apply Fin.ext
    match a with
    | ⟨0, _⟩ => show win0_4.index t (0 : Fin 2) * 64 + 1 * k.val = k.val; omega
    | ⟨1, _⟩ => show win0_4.index t (1 : Fin 2) * 64 + 1 * j.val = j.val; omega
  have h5 : ((cfg0.win 5).blk t).view.emb (ix2 p q) = (ix2 (rowAt t p) q : S100000x64.Idx) := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show k0_pay1 (F := Ideal) _ _ _ _ _ (ix2 p q) = ofArrays a0 a1 a2 a3 a4 (((cfg0.win 5).blk t).view.emb (ix2 p q))
  rw [Cert.KernelIdeal.BlockRow.pay_apply, h5]
  show row (fun k => a0 (((cfg0.win 0).blk t).view.emb (ix2 p k)))
      (fun k => a1 (((cfg0.win 1).blk t).view.emb (ix2 p k)) * a2 (((cfg0.win 2).blk t).view.emb (ix2 p (0 : Fin 1))))
      (fun k j => a3 (((cfg0.win 3).blk t).view.emb (ix2 k j))) (fun k j => a4 (((cfg0.win 4).blk t).view.emb (ix2 k j))) q = _
  simp only [h0, h1, h2, h3, h4]
  rfl

/-- An index of the result array is in point `t`'s block iff each coordinate is in the block's range on its axis. -/
theorem mem_block (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v23).slice (win0_5.rect t)).set ↔ _
  rw [View.set_slice_whole, Rect.mem_set_unit]
  exact Iff.rfl

/-- Every row of the result lies in the block of the point `row / 5000`, and every point writes back. -/
theorem covered (i : S100000x64.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 64 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, e50, e51⟩ := block_index t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- The five arrays the region finds, as the body's function of them. -/
def ofRegion (c : Dev nD) : S100000x64.Idx → EReal :=
  ofArrays (V m c main_arg1) (V m c main_v9) (V m c main_v18) (V m c main_v20) (V m c main_v22)

/-- What point `t` writes back is block `t` of `ofRegion`. -/
theorem flushed_eq (c : Dev nD) (t : Fin cfg0.N) :
    (dats m 0 c).flushed 5 t = ((cfg0.win 5).blk t).view.read (Elt Ideal) (ofRegion m c) := by
  rw [Cert.KernelIdeal.Value.flushed5]
  unfold iblk ofRegion
  exact block_of_arrays t _ _ _ _ _

/-- So the result array ends holding `ofRegion`. -/
theorem final_region (c : Dev nD) : (dats m 0 c).arrAt 5 cfg0.N = ofRegion m c :=
  (dats m 0 c).arrAt_eq_of_cover 5 (ofRegion m c) (fun t _ => flushed_eq m c t) covered

/-- The region's function of its arrays is `ConvSpec.result` of the program's arguments: the node features are the
    second argument untouched, the neighbour sums and the clipped counts the reference's terms, the product with the
    reciprocal of a clipped count the quotient by it, the weight windows the weight arguments transposed. -/
theorem ofRegion_eq (c : Dev nD) :
    ofRegion m c = result (m ((c : Thread nD τ).loc main_arg1))
      (Cert.ReferenceIdeal.Read.val_main_v9 (F := Ideal) (m ((c : Thread nD τ).loc main_arg0))
        (m ((c : Thread nD τ).loc main_arg2)) (m ((c : Thread nD τ).loc main_arg3)))
      (Cert.ReferenceIdeal.Read.val_main_v15 (F := Ideal) (m ((c : Thread nD τ).loc main_arg3)))
      (m ((c : Thread nD τ).loc main_arg4)) (m ((c : Thread nD τ).loc main_arg5)) := by
  funext i
  obtain ⟨r, q, rfl⟩ : ∃ (r : Fin 100000) (q : Fin 64), i = ix2 r q := ⟨i 0, i 1, eq_ix2 i⟩
  unfold ofRegion
  rw [ofArrays_apply, result_apply]
  refine row_congr (fun k => ?_) (fun k => ?_) (fun k j => ?_) (fun k j => ?_) _
  · rw [V_main_arg1]
  · rw [Cert.KernelIdeal.Entry.summed_eq, Cert.KernelIdeal.Entry.recip_apply]
    refine mul_recip _ _ ?_
    rw [Cert.ReferenceIdeal.Read.val_main_v15_apply]
    exact max_one_ne_zero _
  · exact Cert.KernelIdeal.Entry.wself_apply m c k j
  · exact Cert.KernelIdeal.Entry.wneigh_apply m c k j

/-- THE RUN: every weakly fair execution of the kernel's program ends with the result array at `ConvSpec.result` of
    the arguments, the arguments unchanged. -/
theorem run : θ_run defs (onTc (τ := τ) (main (F := Ideal))) ⟨m, fun _ => 0, ρ⟩ fun r => ∀ c : Dev nD,
      r.2.mem ((c : Thread nD τ).loc main_v23) = result (m ((c : Thread nD τ).loc main_arg1))
        (Cert.ReferenceIdeal.Read.val_main_v9 (F := Ideal) (m ((c : Thread nD τ).loc main_arg0))
          (m ((c : Thread nD τ).loc main_arg2)) (m ((c : Thread nD τ).loc main_arg3)))
        (Cert.ReferenceIdeal.Read.val_main_v15 (F := Ideal) (m ((c : Thread nD τ).loc main_arg3)))
        (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono
    (fun r h c => ⟨(h c).1.trans ((final_region m c).trans (ofRegion_eq m c)), (h c).2⟩)
    (Cert.KernelIdeal.Value.run_blocks m ρ)

end Cert.KernelIdeal.Whole

end
-- ==== Proof.RefResult.lean ====
/-
  The reference's result array, index by index, is `ConvSpec.result` of its arguments.

  Read one operation at a time: the activation at `(r, q)` is the maximum with zero of the two matrix products — the
  node features' row `r` against the last argument transposed, and the neighbour sums' row `r`, each entry divided by
  node `r`'s clipped count, against the fifth argument transposed; the row's norm is the root of the sum over the 64
  columns of the squared activations, a zero root replaced by one; the result is the activation over that norm. The
  gathered and scatter-added neighbour sums and the counts are left as the terms they are.
-/
import proofs.«155459_j32220844654996_2_alg».proof.Proof.Gen.ReferenceIdeal.Read
import proofs.«155459_j32220844654996_2_alg».proof.Proof.ConvSpec
import Idealize.ShloMosaic.Lib.ValueIdx

set_option maxHeartbeats 100000

noncomputable section

namespace Cert.ReferenceIdeal.RefResult

open Idealize.ShloMosaic Idealize.ShloMosaic.ValueIdx
open Cert.ReferenceIdeal Cert.ReferenceIdeal.Read Cert.ConvSpec

/-! ## The composed index functions, by coordinates -/

theorem lidx20 (r : Fin 100000) (q k : Fin 64) : lidx_main_v20 (ix2 r q) k = ix2 r k :=
  funext fun a => Fin.ext (by match a with | ⟨0, _⟩ => rfl | ⟨1, _⟩ => rfl)
theorem ridx20 (r : Fin 100000) (q k : Fin 64) : ridx_main_v20 (ix2 r q) k = ix2 k q :=
  funext fun a => Fin.ext (by match a with | ⟨0, _⟩ => rfl | ⟨1, _⟩ => rfl)
theorem idx19 (k q : Fin 64) : idx_main_v19 (ix2 k q) = ix2 q k :=
  funext fun a => Fin.ext (by match a with | ⟨0, _⟩ => rfl | ⟨1, _⟩ => rfl)
theorem lidx22 (r : Fin 100000) (q k : Fin 64) : lidx_main_v22 (ix2 r q) k = ix2 r k :=
  funext fun a => Fin.ext (by match a with | ⟨0, _⟩ => rfl | ⟨1, _⟩ => rfl)
theorem ridx22 (r : Fin 100000) (q k : Fin 64) : ridx_main_v22 (ix2 r q) k = ix2 k q :=
  funext fun a => Fin.ext (by match a with | ⟨0, _⟩ => rfl | ⟨1, _⟩ => rfl)
theorem idx21 (k q : Fin 64) : idx_main_v21 (ix2 k q) = ix2 q k :=
  funext fun a => Fin.ext (by match a with | ⟨0, _⟩ => rfl | ⟨1, _⟩ => rfl)
theorem idx16_17 (r : Fin 100000) (k : Fin 64) : idx_main_v16 (idx_main_v17 (ix2 r k)) = ix1 r :=
  funext fun a => Fin.ext (by match a with | ⟨0, _⟩ => rfl)
theorem idx29 (r : Fin 100000) (q : Fin 64) : idx_main_v29 (ix2 r q) = ix2 r (0 : Fin 1) :=
  funext fun a => Fin.ext (by match a with | ⟨0, _⟩ => rfl | ⟨1, _⟩ => rfl)
theorem idx_c1v2 (r : Fin 100000) (u : Fin 1) : idx_main_call1_v2 (ix2 r u) = ix1 r :=
  funext fun a => Fin.ext (by match a with | ⟨0, _⟩ => rfl)
theorem idx_c1v1 (r : Fin 100000) (k : Fin 64) : idx_main_call1_v1 (ix1 r) k = ix2 r k :=
  funext fun a => Fin.ext (by match a with | ⟨0, _⟩ => rfl | ⟨1, _⟩ => rfl)

variable (x0 x1 : (⟨S100000x64, .f32⟩ : BufTy).Contents (Elt Ideal)) (x2 x3 : (⟨S1600000, .i32⟩ : BufTy).Contents (Elt Ideal))
  (x4 x5 : (⟨S64x64, .f32⟩ : BufTy).Contents (Elt Ideal))

/-- The activation at row `r`, column `q`. -/
theorem act_eq (r : Fin 100000) (q : Fin 64) :
    val_main_v24 (F := Ideal) x0 x1 x2 x3 x4 x5 (ix2 r q)
      = act (fun k => x1 (ix2 r k))
          (fun k => Ideal.div (val_main_v9 (F := Ideal) x0 x2 x3 (ix2 r k)) (val_main_v15 (F := Ideal) x3 (ix1 r)))
          (fun k c => x5 (ix2 c k)) (fun k c => x4 (ix2 c k)) q := by
  rw [val_main_v24_apply, val_main_v23_apply, val_main_v20_apply, val_main_v22_apply, val_main_call0_v0_apply,
    val_main_call0_cst_apply]
  unfold act
  rw [Ideal.maximumf_def, Ideal.addf_def, Ideal.ofBits_def]
  refine congrArg (max · _) (congrArg₂ (· + ·) (Finset.sum_congr rfl fun k _ => ?_) (Finset.sum_congr rfl fun k _ => ?_))
  · rw [val_main_v19_apply, lidx20, ridx20, idx19]
  · rw [val_main_v18_apply, val_main_v21_apply, lidx22, ridx22, idx21, val_main_v17_apply, val_main_v16_apply, idx16_17,
      Ideal.hostDivf_def]

/-- The sum of squares of row `r`: the host's sum starts from zero, which adds nothing. -/
theorem rowsq_eq (r : Fin 100000) :
    val_main_call1_v1 (F := Ideal) x0 x1 x2 x3 x4 x5 (ix1 r)
      = sumsq (fun c => val_main_v24 (F := Ideal) x0 x1 x2 x3 x4 x5 (ix2 r c)) := by
  rw [val_main_call1_v1_apply, val_main_call1_cst_apply, Ideal.ofBits_def, Ideal.ofBits_zero_f32, zero_add]
  unfold sumsq
  refine Finset.sum_congr rfl fun k _ => ?_
  rw [val_main_call1_v0_apply, idx_c1v1, Ideal.mulf_def]

/-- The reference's result is `ConvSpec.result` of the node features, the neighbour sums, the clipped counts and the two
    weight arguments. -/
theorem result_eq :
    val_main_v30 (F := Ideal) x0 x1 x2 x3 x4 x5
      = result x1 (val_main_v9 (F := Ideal) x0 x2 x3) (val_main_v15 (F := Ideal) x3) x4 x5 := by
  funext i
  obtain ⟨r, q, rfl⟩ : ∃ (r : Fin 100000) (q : Fin 64), i = ix2 r q := ⟨i 0, i 1, eq_ix2 i⟩
  rw [val_main_v30_apply, val_main_v29_apply, idx29, val_main_v28_apply, val_main_v27_apply, val_main_v25_apply,
    val_main_call1_v2_apply, idx_c1v2, rowsq_eq, act_eq,
    show (fun c => val_main_v24 (F := Ideal) x0 x1 x2 x3 x4 x5 (ix2 r c))
      = act (fun k => x1 (ix2 r k))
          (fun k => Ideal.div (val_main_v9 (F := Ideal) x0 x2 x3 (ix2 r k)) (val_main_v15 (F := Ideal) x3 (ix1 r)))
          (fun k c => x5 (ix2 c k)) (fun k c => x4 (ix2 c k)) from funext fun c => act_eq x0 x1 x2 x3 x4 x5 r c]
  generalize val_main_v9 (F := Ideal) x0 x2 x3 = S
  generalize val_main_v15 (F := Ideal) x3 = D
  rfl

end Cert.ReferenceIdeal.RefResult

end
-- ==== Proof.lean ====
/-
  The graph layer (mean over neighbours, two linear maps, clipping at zero, row normalization): the kernel's
  program and the reference compute the same array on the extended reals.

  Both programs gather the neighbours' rows and add them up per node, and count each node's neighbours, by the same
  host operations on the same arguments; those two arrays are left as the terms they are. The kernel then multiplies a
  node's neighbour sum by one over its count clipped below at one, where the reference divides by the clipped count:
  the count is at least one, so not zero, and the product with its reciprocal is the quotient. Both apply the two
  weight matrices transposed (the kernel transposes before its region, and its change of float format is the identity
  here), add, and clip at zero. The kernel replaces a zero sum of squares by one before the root, the reference a zero
  root by one after it: the root vanishes only at zero and the root of one is one, so the two norms agree. Both divide
  the activations by that norm. So both results are `ConvSpec.result` of the arguments (Proof/KernelWhole.lean for the
  kernel's program, block by block over its 20 grid points; Proof/RefResult.lean for the reference, operation by
  operation). No law used needs a finite input, so the precondition is never opened.

  The three frames are the generated ones (the reference's is its generated run with the result dropped), and the
  idealization rewrote nothing, so there is nothing to preserve.
-/
import proofs.«155459_j32220844654996_2_alg».proof.Defs
import proofs.«155459_j32220844654996_2_alg».proof.Proof.Gen.Kernel
import proofs.«155459_j32220844654996_2_alg».proof.Proof.Gen.Kernel.Skeleton
import proofs.«155459_j32220844654996_2_alg».proof.Proof.Gen.Kernel.Launch
import proofs.«155459_j32220844654996_2_alg».proof.Proof.Gen.Kernel.Points
import proofs.«155459_j32220844654996_2_alg».proof.Proof.Gen.Kernel.Frame
import proofs.«155459_j32220844654996_2_alg».proof.Proof.Gen.KernelIdeal
import proofs.«155459_j32220844654996_2_alg».proof.Proof.Gen.KernelIdeal.Skeleton
import proofs.«155459_j32220844654996_2_alg».proof.Proof.Gen.KernelIdeal.Launch
import proofs.«155459_j32220844654996_2_alg».proof.Proof.Gen.KernelIdeal.Points
import proofs.«155459_j32220844654996_2_alg».proof.Proof.Gen.KernelIdeal.Frame
import proofs.«155459_j32220844654996_2_alg».proof.Proof.Gen.ReferenceIdeal
import proofs.«155459_j32220844654996_2_alg».proof.Proof.Gen.KernelIdeal.Value
import proofs.«155459_j32220844654996_2_alg».proof.Proof.Gen.ReferenceIdeal.Run
import proofs.«155459_j32220844654996_2_alg».proof.Proof.Gen.ReferenceIdeal.Read
import proofs.«155459_j32220844654996_2_alg».proof.Proof.Gen.Pre_finite_inputs
import proofs.«155459_j32220844654996_2_alg».proof.Proof.ConvSpec
import proofs.«155459_j32220844654996_2_alg».proof.Proof.KernelWhole
import proofs.«155459_j32220844654996_2_alg».proof.Proof.RefResult
import Idealize.ShloMosaic.Adequacy
import Idealize.ShloMosaic.Init

noncomputable section

namespace Cert.Proof

open Idealize.ShloMosaic Idealize.SL.Sem

/-- The kernel's program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result at `ConvSpec.result` of the
    arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefResult.result_eq]
  obtain ⟨a0, a1, a2, a3, a4, a5⟩ := hagree c
  rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
